-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x1 : S_.BroadcastsInDim S10000x1 (![] : Fin 0 → Fin S10000x1.rank)
  reducesTo_S10000x1_S_d0_1 : S10000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x1 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x1 .f32 := Host.absf main_arg2
  let main_cst_2 : FVec F S_ .f32 := constant S_ .f32 0x7F800000#32
  let main_v10 : FVec F S10000x1 .f32 := broadcastInDim S10000x1 ![] bcast_S_S10000x1 main_cst_2
  let main_v11 : IVec S10000x1 1 := cmpf .olt main_v9 main_v10
  let main_c_3 : IVec S_ 1 := constantI S_ 1 1#1
  let main_v12 : IVec S_ 1 := (fun x v => Host.reduce IntOp.andi x v reducesTo_S10000x1_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S1x128 : Shape := ⟨2, ![1, 128]⟩
abbrev S224x10000 : Shape := ⟨2, ![224, 10000]⟩
abbrev S224x1 : Shape := ⟨2, ![224, 1]⟩
abbrev S224x128 : Shape := ⟨2, ![224, 128]⟩

abbrev nBuf : Space → Nat
  | .hbm => 7
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x1, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S10000x128, .f32⟩
  | .local _ .vmem, ⟨0, _⟩ => ⟨S10000x128, .f32⟩
  | .local _ .vmem, ⟨1, _⟩ => ⟨S224x10000, .f32⟩
  | .local _ .vmem, ⟨2, _⟩ => ⟨S224x10000, .f32⟩
  | .local _ .vmem, ⟨3, _⟩ => ⟨S224x1, .f32⟩
  | .local _ .vmem, ⟨4, _⟩ => ⟨S224x1, .f32⟩
  | .local _ .vmem, ⟨5, _⟩ => ⟨S128x128, .f32⟩
  | .local _ .vmem, ⟨6, _⟩ => ⟨S1x128, .f32⟩
  | .local _ .vmem, ⟨7, _⟩ => ⟨S224x128, .f32⟩
  | .local _ .vmem, ⟨8, _⟩ => ⟨S224x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![45], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S224x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S224x10000_S224x10000_0_0 : ∀ a, (![0, 0] : Fin 2 → Nat) a + S224x10000.size a ≤ S224x10000.size a
  h_S224x10000 : 0 < S224x10000.numel
  inb_S224x1_S224x1_0_0 : ∀ a, (![0, 0] : Fin 2 → Nat) a + S224x1.size a ≤ S224x1.size a
  h_S224x1 : 0 < S224x1.numel
  broadcasts_S224x1_S224x128 : S224x1.Broadcasts S224x128
  inb_S224x128_S224x128_0_0 : ∀ a, (![0, 0] : Fin 2 → Nat) a + S224x128.size a ≤ S224x128.size a
  h_S224x128 : 0 < S224x128.numel
  dot_S10000x128_S128x128_S10000x128_1_0_0_1_n_n_wf : DotDims.WF S10000x128 S128x128 S10000x128 [1] [0] [0] [1] [] []
  dot_S224x10000_S10000x128_S224x128_1_0_0_1_n_n_wf : DotDims.WF S224x10000 S10000x128 S224x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S224x10000.size a < S10000x10000.size a
  hwx0_1 : ∀ i : grid0.Coords, EltTy.bits .f32 = 32 ∨ (Rect.unit (s := S10000x10000) (fun a => cc0_transform_1 i a * S224x10000.size a) (fun a => (Pipeline.Clip.of (cc0_transform_1 i a) (S224x10000.size a) (S10000x10000.size a)).extent (S224x10000.size a)) fun a => Pipeline.Clip.inb (Pipeline.Clip.ok_of (hstart0_1 i a))).WholeWords (EltTy.packing .f32)
  hwxs0_1 : ∀ i : grid0.Coords, EltTy.bits .f32 = 32 ∨ (Rect.unit (s := S224x10000) (fun _ => 0) (fun a => (Pipeline.Clip.of (cc0_transform_1 i a) (S224x10000.size a) (S10000x10000.size a)).extent (S224x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S224x1.size a < S10000x1.size a
  hwx0_2 : ∀ i : grid0.Coords, EltTy.bits .f32 = 32 ∨ (Rect.unit (s := S10000x1) (fun a => cc0_transform_2 i a * S224x1.size a) (fun a => (Pipeline.Clip.of (cc0_transform_2 i a) (S224x1.size a) (S10000x1.size a)).extent (S224x1.size a)) fun a => Pipeline.Clip.inb (Pipeline.Clip.ok_of (hstart0_2 i a))).WholeWords (EltTy.packing .f32)
  hwxs0_2 : ∀ i : grid0.Coords, EltTy.bits .f32 = 32 ∨ (Rect.unit (s := S224x1) (fun _ => 0) (fun a => (Pipeline.Clip.of (cc0_transform_2 i a) (S224x1.size a) (S10000x1.size a)).extent (S224x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S224x128.size a < S10000x128.size a
  hwx0_5 : ∀ i : grid0.Coords, EltTy.bits .f32 = 32 ∨ (Rect.unit (s := S10000x128) (fun a => cc0_transform_5 i a * S224x128.size a) (fun a => (Pipeline.Clip.of (cc0_transform_5 i a) (S224x128.size a) (S10000x128.size a)).extent (S224x128.size a)) fun a => Pipeline.Clip.inb (Pipeline.Clip.ok_of (hstart0_5 i a))).WholeWords (EltTy.packing .f32)
  hwxs0_5 : ∀ i : grid0.Coords, EltTy.bits .f32 = 32 ∨ (Rect.unit (s := S224x128) (fun _ => 0) (fun a => (Pipeline.Clip.of (cc0_transform_5 i a) (S224x128.size a) (S10000x128.size a)).extent (S224x128.size a)) fun a => (Nat.zero_add _).trans_le (Pipeline.Clip.extent_le (Pipeline.Clip.ok_of (hstart0_5 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S224x10000_S10000x128_S224x128_1_0_0_1_n_n : DotDims S224x10000 S10000x128 S224x128 where
  lhsContracting := [1]
  rhsContracting := [0]
  lhsNonContracting := [0]
  rhsNonContracting := [1]
  lhsBatch := []
  rhsBatch := []
  wf := dot_S224x10000_S10000x128_S224x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S224x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S224x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v0) S224x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x1, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsPoint.lean ====
/-
  The kernel's body at ONE grid point, for any float values.  The body keeps the matrix S = X·W + b in a buffer
  of its own: at the first grid point it computes S from the whole of X, W and b and stores it; at every point
  it reads S back, multiplies its block A of adjacency rows into it, scales row r by the r-th entry of its
  block D of the degree column, clamps below at zero, and stores the block.  So, whatever the seven buffers hold:
    * at the first point the kept buffer ends at  S = pay1 X W b  and the output block at  pay2 A S D;
    * at a later point the kept buffer is unchanged, at some S', and the output block ends at  pay2 A S' D;
  the five input buffers are left as found.
-/
import proofs.«105594_g66322884985284_cont_9to1c4b_680_18_alg».proof.Proof.Gen.Kernel.Frame
import proofs.«105594_g66322884985284_cont_9to1c4b_680_18_alg».proof.Proof.Gen.Kernel.Skeleton
import Idealize.ShloMosaic.Lib.Pipeline.Value

set_option maxRecDepth 16384

noncomputable section

namespace Cert.Kernel.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

section Whole

variable {κ : Kind} {sp : Space} {S : Shape} {e : EltTy} {Val : EltTy → Type} [∀ e, Nonempty (Val e)]

/-- One store through the whole shape at offset zero: what the buffer then reads is the stored value, whatever it held. -/
theorem read_store_whole (v : View sig κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A load through the whole shape at offset zero of a whole buffer reads its contents. -/
theorem load_whole (a : Memref sig κ sp S e) (h : a.IsWhole) {off : Fin S.rank → Nat} (hz : off = fun _ => 0)
    (inb : ∀ a, off a + S.size a ≤ S.size a) (x : S.Idx → Val e) :
    a.view.readAt Val (Rect.unit off S.size inb).toLoadRect (h.unread x) = x := by
  rw [View.readAt_eq_ld, h.read_unread, View.ld_unit_zero hz]

end Whole

variable {F : FTy → Type} [FloatOps F]

local notation "𝕄" => MT nD τ sig Unit (Elt F) ℕ (UR sig nD τ) ℕ

/-- The body's one branch: "this is grid point 0", as the body computes it from the grid coordinate. -/
abbrev cond0 (i : grid0.Coords) : Prop := (Scalar.cmpi .ne (Scalar.extui (Scalar.cmpi .eq (BitVec.ofNat 32 (i 0).val) 0#32)) 0#32) = 1#1

/-- It holds at the first of the 45 points and at no other. -/
theorem hcond0 : ∀ t : Fin cfg0.N, cond0 (grid0.coords t) ↔ t.val = 0 :=
  (by decide +kernel : ∀ t : Fin grid0.N, cond0 (grid0.coords t) ↔ t.val = 0)

/-- A later point: the kept buffer holds some `xs` and is only read; the output block ends at `pay2 x1 xs x2`. -/
theorem body_later (c : Dev nD) (i : grid0.Coords) (hc : ¬cond0 i) (arg1 : Memref sig .tc .vmem S10000x128 .f32) (harg1 : arg1.IsWhole) (arg2 : Memref sig .tc .vmem S224x10000 .f32) (harg2 : arg2.IsWhole) (arg3 : Memref sig .tc .vmem S224x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S224x128 .f32) (harg6 : arg6.IsWhole) (arg7 : Memref sig .tc .vmem S10000x128 .f32) (harg7 : arg7.IsWhole)
    (x0 : Vec F S10000x128 .f32) (x1 : Vec F S224x10000 .f32) (x2 : Vec F S224x1 .f32) (x3 : Vec F S128x128 .f32) (x4 : Vec F S1x128 .f32) (x5 : Vec F S224x128 .f32) (xs : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare xs
          ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4
              ∗ owns (c : Thread nD τ) arg6 fullShare (k0_pay2 x1 xs x2) ∗ owns (c : Thread nD τ) arg7 fullShare xs) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  have hz : (![0, 0] : Fin 2 → Nat) = fun _ => 0 := funext fun a => by fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_store_whole arg6.view (harg6.unread x5) hz inb_S224x128_S224x128_0_0,
      load_whole arg2 harg2 hz, load_whole arg7 harg7 hz, load_whole arg3 harg3 hz]
  · iexists _; isplitr; · ipureintro; exact hfs
    iexact HS

/-- The first point: the kept buffer, whatever it held, ends at `pay1 x0 x3 x4`, which is what the output
    block's product then reads. -/
theorem body_first (c : Dev nD) (i : grid0.Coords) (hc : cond0 i) (arg1 : Memref sig .tc .vmem S10000x128 .f32) (harg1 : arg1.IsWhole) (arg2 : Memref sig .tc .vmem S224x10000 .f32) (harg2 : arg2.IsWhole) (arg3 : Memref sig .tc .vmem S224x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S224x128 .f32) (harg6 : arg6.IsWhole) (arg7 : Memref sig .tc .vmem S10000x128 .f32) (harg7 : arg7.IsWhole)
    (x0 : Vec F S10000x128 .f32) (x1 : Vec F S224x10000 .f32) (x2 : Vec F S224x1 .f32) (x3 : Vec F S128x128 .f32) (x4 : Vec F S1x128 .f32) (x5 : Vec F S224x128 .f32) (xs : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare xs
          ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4
              ∗ owns (c : Thread nD τ) arg6 fullShare (k0_pay2 x1 (k0_pay1 x0 x3 x4) x2) ∗ owns (c : Thread nD τ) arg7 fullShare (k0_pay1 x0 x3 x4)) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  have hz : (![0, 0] : Fin 2 → Nat) = fun _ => 0 := funext fun a => by fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_store_whole arg6.view (harg6.unread x5) hz inb_S224x128_S224x128_0_0,
      View.readCov_unit_zero arg7.view hz inb_S10000x128_S10000x128_0_0,
      load_whole arg2 harg2 hz, load_whole arg1 harg1 hz, load_whole arg4 harg4 hz, load_whole arg5 harg5 hz,
      load_whole arg3 harg3 hz]
  · iexists _; isplitr
    swap; · iexact HS
    ipureintro
    sl_unfold_run_names
    rw [read_store_whole arg7.view (harg7.unread xs) hz inb_S10000x128_S10000x128_0_0,
      load_whole arg1 harg1 hz, load_whole arg4 harg4 hz, load_whole arg5 harg5 hz]

end Cert.Kernel.Point

end
-- ==== Proof.BitsFrame.lean ====
/-
  The word-level kernel runs to the end, faults nowhere and leaves its five argument arrays as it found them.
  Nothing is said here of what the result array holds, so the proof constrains no buffer's contents: whatever the
  seven buffers hold when the body is called at a grid point, the body runs (the two triples of the module this one
  imports) and hands them back at some contents.  The three inputs with a constant block index, the two inputs and
  the output whose last block overhangs the array's 10000 rows, and the buffer the kernel keeps S in, are all
  treated alike: held at anything before the body and at anything after it.
-/
import proofs.«105594_g66322884985284_cont_9to1c4b_680_18_alg».proof.Proof.BitsPoint
import Idealize.ShloMosaic.Lib.Pipeline.Kit

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (RDat)
open Cert.Kernel Cert.Kernel.Gen Cert.Kernel.Point

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer the kernel keeps between grid points, as a memref. -/
abbrev kept : Memref sig .tc .vmem S10000x128 .f32 := Memref.whole cc0_scratch0

/-- What the region may use and need not describe: the kept buffer at some contents, and the generator register. -/
theorem PhiA_eq (c : Dev nD) :
    (Pipeline.ΦA spec0 c : sProp 𝕄)
      = iprop(iprop((∃ d, owns (c : Thread nD τ) kept fullShare d)) ∗ (∃ r, prngReg c r)) := by
  unfold Pipeline.ΦA; rw [scopedRest0_eq]; simp only [kept, owns_whole]; try rfl

/-- The proof data: the arrays as the region finds them; every buffer handed back at anything. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, from any contents of the six current staging buffers. -/
theorem sound_point (c : Dev nD) (t : Fin cfg0.N)
    (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5))
      ⊢ wp frame (wpE (defs₀ (F := F)) Variants.none c none) Set.univ (bodyAt0 t) (fun _ =>
          iprop((rdat m c).Φ t.succ ∗ (rdat m c).owesAt () t.succ
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X) ∗ (∃ X, ⌜True⌝ ∗ owns (c : Thread nD τ) (st0_3 t) fullShare X)
            ∗ (∃ X, ⌜True⌝ ∗ owns (c : Thread nD τ) (st0_4 t) fullShare X) ∗ (∃ X, ⌜True⌝ ∗ owns (c : Thread nD τ) (st0_5 t) fullShare X))) := by
  rw [show (rdat m c).Φ t.succ = Pipeline.ΦA spec0 c from rfl, show (rdat m c).Φ t.castSucc = Pipeline.ΦA spec0 c from rfl,
    show (rdat m c).owesAt () t.succ = (rdat m c).owesAt () t.castSucc from rfl, PhiA_eq]
  iintro ⟨⟨⟨%xs, HS⟩, Hg⟩, Ho, H0, H1, H2, H3, H4, H5⟩
  by_cases hc : cond0 (grid0.coords t)
  · iapply (body_first (F := F) c (grid0.coords t) hc _ _ _ _ _ _ _ _ _ _ _ _ _ _ (Y 0) (Y 1) (Y 2) (Y 3) (Y 4) (Y 5) xs Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexists _; iexact HS
      iexact Hg
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    isplitl [H3]; · iexists _; isplitr; · ipureintro; trivial
                    iexact H3
    isplitl [H4]; · iexists _; isplitr; · ipureintro; trivial
                    iexact H4
    iexists _; isplitr; · ipureintro; trivial
    iexact H5
  · iapply (body_later (F := F) c (grid0.coords t) hc _ _ _ _ _ _ _ _ _ _ _ _ _ _ (Y 0) (Y 1) (Y 2) (Y 3) (Y 4) (Y 5) xs Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexists _; iexact HS
      iexact Hg
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    isplitl [H3]; · iexists _; isplitr; · ipureintro; trivial
                    iexact H3
    isplitl [H4]; · iexists _; isplitr; · ipureintro; trivial
                    iexact H4
    iexists _; isplitr; · ipureintro; trivial
    iexact H5

/-- The body obligation of the relational proof data, at every point. -/
theorem body_obligation (c : Dev nD) : (rdat (F := F) m c).BodyObligation (defs₀ (F := F)) Variants.none () Set.univ := fun t Y _ => by
  rw [bigSep_W0, bigSep_W0]
  exact sound_point m c t Y

set_option backward.isDefEq.respectTransparency.types false in
/-- Every weakly fair execution terminates; each array ends at contents it may hold after the write-backs, every other
    unscoped buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame: the four arrays the region stages as inputs are never written (an input array's contents after
    the write-backs are its entry contents), and the fifth argument bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(show r.2.mem ((c.tc : Thread nD τ).loc main_arg0) = (rdat m c).A 0 from
        (congrFun ((rdat m c).ArrAt_in 0 rfl cfg0.N) _).mp ((h c).1 0)).trans (V_main_arg0 m c),
     (show r.2.mem ((c.tc : Thread nD τ).loc main_arg1) = (rdat m c).A 1 from
        (congrFun ((rdat m c).ArrAt_in 1 rfl cfg0.N) _).mp ((h c).1 1)).trans (V_main_arg1 m c),
     (show r.2.mem ((c.tc : Thread nD τ).loc main_arg2) = (rdat m c).A 2 from
        (congrFun ((rdat m c).ArrAt_in 2 rfl cfg0.N) _).mp ((h c).1 2)).trans (V_main_arg2 m c),
     (show r.2.mem ((c.tc : Thread nD τ).loc main_arg3) = (rdat m c).A 3 from
        (congrFun ((rdat m c).ArrAt_in 3 rfl cfg0.N) _).mp ((h c).1 3)).trans (V_main_arg3 m c),
     ((h c).2 main_arg4 (Pipeline.mem_restRefs_of main_arg4 (by decide) (by decide))).trans (V_main_arg4 m c)⟩)
    (run_main m ρ)

end Cert.Kernel.Run

end
-- ==== Proof.IdealPoint.lean ====
/-
  The kernel's body at ONE grid point, for any float values.  The body keeps the matrix S = X·W + b in a buffer
  of its own: at the first grid point it computes S from the whole of X, W and b and stores it; at every point
  it reads S back, multiplies its block A of adjacency rows into it, scales row r by the r-th entry of its
  block D of the degree column, clamps below at zero, and stores the block.  So, whatever the seven buffers hold:
    * at the first point the kept buffer ends at  S = pay1 X W b  and the output block at  pay2 A S D;
    * at a later point the kept buffer is unchanged, at some S', and the output block ends at  pay2 A S' D;
  the five input buffers are left as found.
-/
import proofs.«105594_g66322884985284_cont_9to1c4b_680_18_alg».proof.Proof.Gen.KernelIdeal.Frame
import proofs.«105594_g66322884985284_cont_9to1c4b_680_18_alg».proof.Proof.Gen.KernelIdeal.Skeleton
import Idealize.ShloMosaic.Lib.Pipeline.Value

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

section Whole

variable {κ : Kind} {sp : Space} {S : Shape} {e : EltTy} {Val : EltTy → Type} [∀ e, Nonempty (Val e)]

/-- One store through the whole shape at offset zero: what the buffer then reads is the stored value, whatever it held. -/
theorem read_store_whole (v : View sig κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A load through the whole shape at offset zero of a whole buffer reads its contents. -/
theorem load_whole (a : Memref sig κ sp S e) (h : a.IsWhole) {off : Fin S.rank → Nat} (hz : off = fun _ => 0)
    (inb : ∀ a, off a + S.size a ≤ S.size a) (x : S.Idx → Val e) :
    a.view.readAt Val (Rect.unit off S.size inb).toLoadRect (h.unread x) = x := by
  rw [View.readAt_eq_ld, h.read_unread, View.ld_unit_zero hz]

end Whole

variable {F : FTy → Type} [FloatOps F]

local notation "𝕄" => MT nD τ sig Unit (Elt F) ℕ (UR sig nD τ) ℕ

/-- The body's one branch: "this is grid point 0", as the body computes it from the grid coordinate. -/
abbrev cond0 (i : grid0.Coords) : Prop := (Scalar.cmpi .ne (Scalar.extui (Scalar.cmpi .eq (BitVec.ofNat 32 (i 0).val) 0#32)) 0#32) = 1#1

/-- It holds at the first of the 45 points and at no other. -/
theorem hcond0 : ∀ t : Fin cfg0.N, cond0 (grid0.coords t) ↔ t.val = 0 :=
  (by decide +kernel : ∀ t : Fin grid0.N, cond0 (grid0.coords t) ↔ t.val = 0)

/-- A later point: the kept buffer holds some `xs` and is only read; the output block ends at `pay2 x1 xs x2`. -/
theorem body_later (c : Dev nD) (i : grid0.Coords) (hc : ¬cond0 i) (arg1 : Memref sig .tc .vmem S10000x128 .f32) (harg1 : arg1.IsWhole) (arg2 : Memref sig .tc .vmem S224x10000 .f32) (harg2 : arg2.IsWhole) (arg3 : Memref sig .tc .vmem S224x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S224x128 .f32) (harg6 : arg6.IsWhole) (arg7 : Memref sig .tc .vmem S10000x128 .f32) (harg7 : arg7.IsWhole)
    (x0 : Vec F S10000x128 .f32) (x1 : Vec F S224x10000 .f32) (x2 : Vec F S224x1 .f32) (x3 : Vec F S128x128 .f32) (x4 : Vec F S1x128 .f32) (x5 : Vec F S224x128 .f32) (xs : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare xs
          ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4
              ∗ owns (c : Thread nD τ) arg6 fullShare (k0_pay2 x1 xs x2) ∗ owns (c : Thread nD τ) arg7 fullShare xs) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  have hz : (![0, 0] : Fin 2 → Nat) = fun _ => 0 := funext fun a => by fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_store_whole arg6.view (harg6.unread x5) hz inb_S224x128_S224x128_0_0,
      load_whole arg2 harg2 hz, load_whole arg7 harg7 hz, load_whole arg3 harg3 hz]
  · iexists _; isplitr; · ipureintro; exact hfs
    iexact HS

/-- The first point: the kept buffer, whatever it held, ends at `pay1 x0 x3 x4`, which is what the output
    block's product then reads. -/
theorem body_first (c : Dev nD) (i : grid0.Coords) (hc : cond0 i) (arg1 : Memref sig .tc .vmem S10000x128 .f32) (harg1 : arg1.IsWhole) (arg2 : Memref sig .tc .vmem S224x10000 .f32) (harg2 : arg2.IsWhole) (arg3 : Memref sig .tc .vmem S224x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S224x128 .f32) (harg6 : arg6.IsWhole) (arg7 : Memref sig .tc .vmem S10000x128 .f32) (harg7 : arg7.IsWhole)
    (x0 : Vec F S10000x128 .f32) (x1 : Vec F S224x10000 .f32) (x2 : Vec F S224x1 .f32) (x3 : Vec F S128x128 .f32) (x4 : Vec F S1x128 .f32) (x5 : Vec F S224x128 .f32) (xs : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare xs
          ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4
              ∗ owns (c : Thread nD τ) arg6 fullShare (k0_pay2 x1 (k0_pay1 x0 x3 x4) x2) ∗ owns (c : Thread nD τ) arg7 fullShare (k0_pay1 x0 x3 x4)) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  have hz : (![0, 0] : Fin 2 → Nat) = fun _ => 0 := funext fun a => by fin_cases a <;> rfl
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    rw [read_store_whole arg6.view (harg6.unread x5) hz inb_S224x128_S224x128_0_0,
      View.readCov_unit_zero arg7.view hz inb_S10000x128_S10000x128_0_0,
      load_whole arg2 harg2 hz, load_whole arg1 harg1 hz, load_whole arg4 harg4 hz, load_whole arg5 harg5 hz,
      load_whole arg3 harg3 hz]
  · iexists _; isplitr
    swap; · iexact HS
    ipureintro
    sl_unfold_run_names
    rw [read_store_whole arg7.view (harg7.unread xs) hz inb_S10000x128_S10000x128_0_0,
      load_whole arg1 harg1 hz, load_whole arg4 harg4 hz, load_whole arg5 harg5 hz]

end Cert.KernelIdeal.Point

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.BlockValue.lean ====
/-
  The body's two values read at an index, over the extended reals.
    * S = X·W + b:   S (k, f) = Σ_j X (k, j) · W (j, f)  +  b (0, f)            (j over the 128 input features)
    * the output block from a block A of adjacency rows, the kept S and a block D of the degree column:
                     out (r, f) = max ( (Σ_k A (r, k) · S (k, f)) · D (r, 0), 0 )   (k over the 10000 nodes)
  Row r of the output block reads row r of A and entry r of D and nothing else of them: so two pairs of blocks
  that agree on a row give the same output row (`pay2_row_congr`).
-/
import proofs.«105594_g66322884985284_cont_9to1c4b_680_18_alg».proof.Proof.Gen.KernelIdeal.Skeleton
import proofs.«105594_g66322884985284_cont_9to1c4b_680_18_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer

open Cert.KernelIdeal Cert.KernelIdeal.Gen Idealize.ShloMosaic Idealize.ShloMosaic.ValueIdx

/-! ### The product `xw`: the operands' indices at an output index and a contraction index -/

theorem xw_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem xw_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem xw_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem xw_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix product into a zero accumulator, read at `(r, c)`: the sum over the 128 contracted coordinates. -/
theorem xw_apply (L : FVec Ideal S10000x128 .f32) (Rt : FVec Ideal S128x128 .f32) (r : Fin 10000) (c : Fin 128) :
    matmul dot_S10000x128_S128x128_S10000x128_1_0_0_1_n_n none L Rt (constant (F := Ideal) S10000x128 .f32 0x00000000#32) (ix2 r c)
      = ∑ k : Fin 128, L (ix2 r k) * Rt (ix2 k c) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r c) ((ValueIdx.contrEquiv1 dot_S10000x128_S128x128_S10000x128_1_0_0_1_n_n 128 rfl rfl).symm k) = ix2 r k := funext fun a => Fin.ext (by
    match a with
    | ⟨0, _⟩ => exact xw_lhs0 _ _
    | ⟨1, _⟩ => exact (xw_lhs1 _ _).trans hk)
  have er : dot_S10000x128_S128x128_S10000x128_1_0_0_1_n_n.rhsIdx (ix2 r c) ((ValueIdx.contrEquiv1 dot_S10000x128_S128x128_S10000x128_1_0_0_1_n_n 128 rfl rfl).symm k) = ix2 k c := funext fun a => Fin.ext (by
    match a with
    | ⟨0, _⟩ => exact (xw_rhs0 _ _).trans hk
    | ⟨1, _⟩ => exact xw_rhs1 _ _)
  rw [el, er]

/-! ### The product `as`: the operands' indices at an output index and a contraction index -/

theorem as_lhs0 (i : S224x128.Idx) (q : dot_S224x10000_S10000x128_S224x128_1_0_0_1_n_n.contr.Idx) : (dot_S224x10000_S10000x128_S224x128_1_0_0_1_n_n.lhsIdx i q 0).val = (i 0).val := by
  unfold DotDims.lhsIdx
  rw [dif_neg (show ¬(0 : Fin S224x10000.rank) ∈ dot_S224x10000_S10000x128_S224x128_1_0_0_1_n_n.lhsBatch by decide), dif_pos (show (0 : Fin S224x10000.rank) ∈ dot_S224x10000_S10000x128_S224x128_1_0_0_1_n_n.lhsNonContracting by decide)]
  rfl
theorem as_lhs1 (i : S224x128.Idx) (q : dot_S224x10000_S10000x128_S224x128_1_0_0_1_n_n.contr.Idx) : (dot_S224x10000_S10000x128_S224x128_1_0_0_1_n_n.lhsIdx i q 1).val = (q ⟨0, by decide⟩).val :=
  dot_S224x10000_S10000x128_S224x128_1_0_0_1_n_n.lhsIdx_val_of_single rfl i q
theorem as_rhs0 (i : S224x128.Idx) (q : dot_S224x10000_S10000x128_S224x128_1_0_0_1_n_n.contr.Idx) : (dot_S224x10000_S10000x128_S224x128_1_0_0_1_n_n.rhsIdx i q 0).val = (q ⟨0, by decide⟩).val :=
  dot_S224x10000_S10000x128_S224x128_1_0_0_1_n_n.rhsIdx_val_of_single rfl i q
theorem as_rhs1 (i : S224x128.Idx) (q : dot_S224x10000_S10000x128_S224x128_1_0_0_1_n_n.contr.Idx) : (dot_S224x10000_S10000x128_S224x128_1_0_0_1_n_n.rhsIdx i q 1).val = (i 1).val := by
  unfold DotDims.rhsIdx
  rw [dif_neg (show ¬(1 : Fin S10000x128.rank) ∈ dot_S224x10000_S10000x128_S224x128_1_0_0_1_n_n.rhsBatch by decide), dif_pos (show (1 : Fin S10000x128.rank) ∈ dot_S224x10000_S10000x128_S224x128_1_0_0_1_n_n.rhsNonContracting by decide)]
  rfl

/-- The matrix product into a zero accumulator, read at `(r, c)`: the sum over the 10000 contracted coordinates. -/
theorem as_apply (L : FVec Ideal S224x10000 .f32) (Rt : FVec Ideal S10000x128 .f32) (r : Fin 224) (c : Fin 128) :
    matmul dot_S224x10000_S10000x128_S224x128_1_0_0_1_n_n none L Rt (constant (F := Ideal) S224x128 .f32 0x00000000#32) (ix2 r c)
      = ∑ k : Fin 10000, L (ix2 r k) * Rt (ix2 k c) := by
  simp only [matmul]
  rw [Ideal.matmul_constant_zero_apply, ← Equiv.sum_comp (ValueIdx.contrEquiv1 dot_S224x10000_S10000x128_S224x128_1_0_0_1_n_n 10000 rfl rfl).symm]
  refine Finset.sum_congr rfl fun k _ => ?_
  have hk := ValueIdx.contrEquiv1_symm_val dot_S224x10000_S10000x128_S224x128_1_0_0_1_n_n 10000 rfl rfl k
  have el : dot_S224x10000_S10000x128_S224x128_1_0_0_1_n_n.lhsIdx (ix2 r c) ((ValueIdx.contrEquiv1 dot_S224x10000_S10000x128_S224x128_1_0_0_1_n_n 10000 rfl rfl).symm k) = ix2 r k := funext fun a => Fin.ext (by
    match a with
    | ⟨0, _⟩ => exact as_lhs0 _ _
    | ⟨1, _⟩ => exact (as_lhs1 _ _).trans hk)
  have er : dot_S224x10000_S10000x128_S224x128_1_0_0_1_n_n.rhsIdx (ix2 r c) ((ValueIdx.contrEquiv1 dot_S224x10000_S10000x128_S224x128_1_0_0_1_n_n 10000 rfl rfl).symm k) = ix2 k c := funext fun a => Fin.ext (by
    match a with
    | ⟨0, _⟩ => exact (as_rhs0 _ _).trans hk
    | ⟨1, _⟩ => exact as_rhs1 _ _)
  rw [el, er]

/-! ### The two stored values -/

/-- `S = X·W + b` at `(k, f)`. -/
theorem pay1_apply (X : Vec Ideal S10000x128 .f32) (W : Vec Ideal S128x128 .f32) (B : Vec Ideal S1x128 .f32) (k : Fin 10000) (f : Fin 128) :
    k0_pay1 X W B (ix2 k f) = (∑ j : Fin 128, X (ix2 k j) * W (ix2 j f)) + B (ix2 (0 : Fin 1) f) := by
  unfold k0_pay1
  rw [shapeCast_self, shapeCast_self, addf_apply, xw_apply, broadcastTo_1b_ab_apply]

/-- The output block at `(r, f)`. -/
theorem pay2_apply (A : Vec Ideal S224x10000 .f32) (S : Vec Ideal S10000x128 .f32) (D : Vec Ideal S224x1 .f32) (r : Fin 224) (f : Fin 128) :
    k0_pay2 A S D (ix2 r f) = max ((∑ k : Fin 10000, A (ix2 r k) * S (ix2 k f)) * D (ix2 r (0 : Fin 1))) 0 := by
  unfold k0_pay2
  rw [maximumf_apply, mulf_apply, as_apply, broadcastTo_a1_ab_apply, broadcast_apply]
  show max _ (Ideal.ofBits .f32 0x00000000#32) = _
  rw [Ideal.ofBits_zero_f32]

/-- Output row `r` depends on row `r` of the adjacency block and entry `r` of the degree block only. -/
theorem pay2_row_congr (A A' : Vec Ideal S224x10000 .f32) (S : Vec Ideal S10000x128 .f32) (D D' : Vec Ideal S224x1 .f32) (r : Fin 224) (f : Fin 128)
    (hA : ∀ k : Fin 10000, A (ix2 r k) = A' (ix2 r k)) (hD : D (ix2 r (0 : Fin 1)) = D' (ix2 r (0 : Fin 1))) :
    k0_pay2 A S D (ix2 r f) = k0_pay2 A' S D' (ix2 r f) := by
  rw [pay2_apply, pay2_apply, hD]
  exact congrArg (fun s => max (s * D' (ix2 r (0 : Fin 1))) 0) (Finset.sum_congr rfl fun k _ => by rw [hA k])

end Cert.KernelIdeal.Layer

end
-- ==== Proof.IdealRun.lean ====
/-
  The idealized kernel's run, with every staging buffer's contents NAMED.  Write S = X·W + b for the body's first
  value, computed at grid point 0 from the whole of X, W and b (their windows' block index is constant).  Then:
    * before point 0 the kept buffer holds anything; after every point it holds S;
    * the three windows of constant index hold their (whole-array) blocks at every point;
    * the adjacency and degree windows hold, on the rows their transfer moves, the array's rows of the block —
      all 224 rows at points 0‥43, the last 144 rows of the array at point 44, where the block overhangs the
      array's 10000 rows — and on the other rows whatever the fetch left there;
    * the output window is left, on the rows its write-back moves, at the block computed from those rows; what
      the body computed on the other rows is never written back and is not stated.  That this is well defined —
      that the moved rows of the output do not depend on the unmoved rows of the inputs — is `cut_out_congr`:
      output row r reads adjacency row r and degree entry r only.
-/
import proofs.«105594_g66322884985284_cont_9to1c4b_680_18_alg».proof.Proof.IdealPoint
import proofs.«105594_g66322884985284_cont_9to1c4b_680_18_alg».proof.Proof.BlockValue
import Idealize.ShloMosaic.Lib.Pipeline.Kit

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open Cert.KernelIdeal Cert.KernelIdeal.Gen Cert.KernelIdeal.Point Cert.KernelIdeal.Layer

local notation "𝕄" => MT nD τ sig Unit (Elt Ideal) ℕ (UR sig nD τ) ℕ

variable (m : (ℓ : Loc nD τ sig) → Buf (Elt Ideal) ℓ) (ρ : Dev nD → PrngReg)

/-- The buffer the kernel keeps between grid points, as a memref. -/
abbrev kept : Memref sig .tc .vmem S10000x128 .f32 := Memref.whole cc0_scratch0

/-- What the region may use and need not describe: the kept buffer at some contents, and the generator register. -/
theorem PhiA_eq (c : Dev nD) :
    (Pipeline.ΦA spec0 c : sProp 𝕄)
      = iprop(iprop((∃ d, owns (c : Thread nD τ) kept fullShare d)) ∗ (∃ r, prngReg c r)) := by
  unfold Pipeline.ΦA; rw [scopedRest0_eq]; simp only [kept, owns_whole]; try rfl

/-- The first grid point. -/
abbrev t0 : Fin cfg0.N := ⟨0, by decide⟩

/-- `S = X·W + b`, from the three constant windows' blocks at the first point. -/
def keptS (c : Dev nD) : Vec Ideal S10000x128 .f32 := k0_pay1 (iblk m c 0 t0) (iblk m c 3 t0) (iblk m c 4 t0)

/-- The output block at point `t`, from the adjacency and degree blocks filled out with zeros past the rows moved. -/
def outBlock (c : Dev nD) (t : Fin cfg0.N) : Vec Ideal S224x128 .f32 :=
  k0_pay2 (win0_1.fill (grid0.coords t) (fun _ => (0 : EReal)) (iblk m c 1 t)) (keptS m c)
    (win0_2.fill (grid0.coords t) (fun _ => (0 : EReal)) (iblk m c 2 t))

/-- The region's invariant before position `n`: anything in the kept buffer before the first point, `S` afterwards. -/
def PhiS (c : Dev nD) : ℕ → sProp 𝕄
  | 0 => Pipeline.ΦA spec0 c
  | _ + 1 => iprop(iprop(owns (c : Thread nD τ) kept fullShare (keptS m c)) ∗ (∃ r, prngReg c r))

theorem PhiS_zero (c : Dev nD) (n : ℕ) (hz : n = 0) : PhiS m c n = Pipeline.ΦA spec0 c := by subst hz; rfl
theorem PhiS_pos (c : Dev nD) (n : ℕ) (hz : n ≠ 0) :
    PhiS m c n = iprop(iprop(owns (c : Thread nD τ) kept fullShare (keptS m c)) ∗ (∃ r, prngReg c r)) := by
  cases n with
  | zero => exact absurd rfl hz
  | succ n => rfl

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => iblk m c 3 t
    | ⟨4, _⟩ => iblk m c 4 t
    | ⟨5, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock m c t := by dsimp only [dats]

/-- On the rows moved, the adjacency and degree windows are left at their blocks. -/
theorem cut_after1 (c : Dev nD) (t : Fin cfg0.N) :
    (cfg0.win 1).cut (grid0.coords t) ((dats m 0 c).after 1 t) = iblk m c 1 t := by
  dsimp only [dats]; exact win0_1.cut_fill _ _ _
theorem cut_after2 (c : Dev nD) (t : Fin cfg0.N) :
    (cfg0.win 2).cut (grid0.coords t) ((dats m 0 c).after 2 t) = iblk m c 2 t := by
  dsimp only [dats]; exact win0_2.cut_fill _ _ _

/-! ## What the body finds -/

theorem before0_0 (c : Dev nD) (t : Fin cfg0.N) (d) : (dats m 0 c).before 0 t d = iblk m c 0 t :=
  before0_0_of m (dats m 0 c) (A_eq m c 0) (after0_0 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The adjacency window, fetched at every point: its block on the rows moved, `d` elsewhere. -/
theorem before0_1 (c : Dev nD) (t : Fin cfg0.N) (d) :
    (dats m 0 c).before 1 t d = win0_1.fill (grid0.coords t) d (iblk m c 1 t) := by
  rw [(dats m 0 c).before_fetched 1 t (fetch0_1 t)]; unfold Dat.fetched Dat.blockOf iblk; rw [A_eq]; try rfl
/-- The degree window likewise. -/
theorem before0_2 (c : Dev nD) (t : Fin cfg0.N) (d) :
    (dats m 0 c).before 2 t d = win0_2.fill (grid0.coords t) d (iblk m c 2 t) := by
  rw [(dats m 0 c).before_fetched 2 t (fetch0_2 t)]; unfold Dat.fetched Dat.blockOf iblk; rw [A_eq]; try rfl
/-- The output window is written back at every point: the body finds anything. -/
theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## The rows moved: the three clipped windows cut alike -/

/-- At every point the three windows of 224 rows move the same number of rows, and all of their columns. -/
theorem xsize_facts : ∀ t : Fin cfg0.N,
    win0_1.xsize (grid0.coords t) 0 = win0_5.xsize (grid0.coords t) 0 ∧ win0_2.xsize (grid0.coords t) 0 = win0_5.xsize (grid0.coords t) 0
      ∧ win0_1.xsize (grid0.coords t) 1 = 10000 ∧ win0_2.xsize (grid0.coords t) 1 = 1 :=
  (by decide +kernel : ∀ t : Fin grid0.N,
    win0_1.xsize (grid0.coords t) 0 = win0_5.xsize (grid0.coords t) 0 ∧ win0_2.xsize (grid0.coords t) 0 = win0_5.xsize (grid0.coords t) 0
      ∧ win0_1.xsize (grid0.coords t) 1 = 10000 ∧ win0_2.xsize (grid0.coords t) 1 = 1)

/-- On an index the transfer moves, the filled block does not depend on what it was filled over. -/
theorem fill_eq_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The rows of the output block that are written back do not depend on what the adjacency and degree buffers hold
    past the rows fetched. -/
theorem cut_out_congr (t : Fin cfg0.N) (d1 d1' : S224x10000.Idx → EReal) (d2 d2' : S224x1.Idx → EReal)
    (A : (win0_1.xblock (grid0.coords t)).Idx → EReal) (D : (win0_2.xblock (grid0.coords t)).Idx → EReal)
    (S : Vec Ideal S10000x128 .f32) :
    win0_5.cut (grid0.coords t) (k0_pay2 (win0_1.fill (grid0.coords t) d1 A) S (win0_2.fill (grid0.coords t) d2 D))
      = win0_5.cut (grid0.coords t) (k0_pay2 (win0_1.fill (grid0.coords t) d1' A) S (win0_2.fill (grid0.coords t) d2' D)) := by
  funext j
  obtain ⟨h1, h2, h3, h4⟩ := xsize_facts t
  have hr : (win0_5.xinj (grid0.coords t) j 0).val < win0_5.xsize (grid0.coords t) 0 := (j 0).isLt
  show k0_pay2 _ S _ (win0_5.xinj (grid0.coords t) j) = k0_pay2 _ S _ (win0_5.xinj (grid0.coords t) j)
  rw [eq_ix2 (win0_5.xinj (grid0.coords t) j)]
  refine pay2_row_congr _ _ S _ _ _ _ (fun k => ?_) ?_
  · refine fill_eq_of_moved win0_1 _ d1 d1' A _ ((win0_1.moved_iff _ _).mpr fun a => ?_)
    match a with
    | ⟨0, _⟩ => show (win0_5.xinj (grid0.coords t) j 0).val < win0_1.xsize (grid0.coords t) 0; rw [h1]; exact hr
    | ⟨1, _⟩ => show k.val < win0_1.xsize (grid0.coords t) 1; rw [h3]; exact k.isLt
  · refine fill_eq_of_moved win0_2 _ d2 d2' D _ ((win0_2.moved_iff _ _).mpr fun a => ?_)
    match a with
    | ⟨0, _⟩ => show (win0_5.xinj (grid0.coords t) j 0).val < win0_2.xsize (grid0.coords t) 0; rw [h2]; exact hr
    | ⟨1, _⟩ => show (0 : ℕ) < win0_2.xsize (grid0.coords t) 1; rw [h4]; exact Nat.one_pos

/-! ## The body obligation -/

theorem sound_point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare ((cfg0.win 1).fill (grid0.coords t) d ((cfg0.win 1).cut (grid0.coords t) ((dats m 0 c).after 1 t))))
            ∗ (∃ d, owns (c : Thread nD τ) (st0_2 t) fullShare ((cfg0.win 2).fill (grid0.coords t) d ((cfg0.win 2).cut (grid0.coords t) ((dats m 0 c).after 2 t))))
            ∗ owns (c : Thread nD τ) (st0_3 t) fullShare ((dats m 0 c).after 3 t)
            ∗ owns (c : Thread nD τ) (st0_4 t) fullShare ((dats m 0 c).after 4 t)
            ∗ (∃ d, owns (c : Thread nD τ) (st0_5 t) fullShare ((cfg0.win 5).fill (grid0.coords t) d ((cfg0.win 5).cut (grid0.coords t) ((dats m 0 c).after 5 t)))))) := by
  simp only [before0_0, before0_1, before0_2, before0_3, before0_4, before0_5]
  rw [cut_after1, cut_after2, after0_0, after0_3, after0_4, after0_5,
    show (dats m 0 c).owesAt () t.succ = (dats m 0 c).owesAt () t.castSucc from rfl,
    show (dats m 0 c).Φ t.succ = PhiS m c (t.val + 1) from rfl, PhiS_pos m c (t.val + 1) (Nat.succ_ne_zero _), Phi_castSucc]
  unfold outBlock
  by_cases hz : t.val = 0
  · obtain rfl : t = t0 := Fin.ext hz
    rw [PhiS_zero m c _ rfl, PhiA_eq]
    unfold keptS
    iintro ⟨⟨⟨%xs, HS⟩, Hg⟩, Ho, ⟨%d0, H0⟩, ⟨%d1, H1⟩, ⟨%d2, H2⟩, ⟨%d3, H3⟩, ⟨%d4, H4⟩, ⟨%d5, H5⟩⟩
    iapply (body_first (F := Ideal) c (grid0.coords t0) ((hcond0 t0).mpr rfl) _ _ _ _ _ _ _ _ _ _ _ _ _ _
      (iblk m c 0 t0) (win0_1.fill (grid0.coords t0) d1 (iblk m c 1 t0)) (win0_2.fill (grid0.coords t0) d2 (iblk m c 2 t0))
      (iblk m c 3 t0) (iblk m c 4 t0) d5 xs Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexists d1; iexact H1
    isplitl [H2]; · iexists d2; iexact H2
    isplitl [H3]; · iexact H3
    isplitl [H4]; · iexact H4
    iexists (k0_pay2 (win0_1.fill (grid0.coords t0) d1 (iblk m c 1 t0)) (k0_pay1 (iblk m c 0 t0) (iblk m c 3 t0) (iblk m c 4 t0)) (win0_2.fill (grid0.coords t0) d2 (iblk m c 2 t0)))
    rw [win0_5.fill_congr_cut (grid0.coords t0) (cut_out_congr t0 d1 _ d2 _ (iblk m c 1 t0) (iblk m c 2 t0) (k0_pay1 (iblk m c 0 t0) (iblk m c 3 t0) (iblk m c 4 t0)))]
    iexact H5
  · rw [PhiS_pos m c _ hz]
    iintro ⟨⟨HS, Hg⟩, Ho, ⟨%d0, H0⟩, ⟨%d1, H1⟩, ⟨%d2, H2⟩, ⟨%d3, H3⟩, ⟨%d4, H4⟩, ⟨%d5, H5⟩⟩
    iapply (body_later (F := Ideal) c (grid0.coords t) (fun h => hz ((hcond0 t).mp h)) _ _ _ _ _ _ _ _ _ _ _ _ _ _
      (iblk m c 0 t) (win0_1.fill (grid0.coords t) d1 (iblk m c 1 t)) (win0_2.fill (grid0.coords t) d2 (iblk m c 2 t))
      (iblk m c 3 t) (iblk m c 4 t) d5 (keptS m c) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexists d1; iexact H1
    isplitl [H2]; · iexists d2; iexact H2
    isplitl [H3]; · iexact H3
    isplitl [H4]; · iexact H4
    iexists (k0_pay2 (win0_1.fill (grid0.coords t) d1 (iblk m c 1 t)) (keptS m c) (win0_2.fill (grid0.coords t) d2 (iblk m c 2 t)))
    rw [win0_5.fill_congr_cut (grid0.coords t) (cut_out_congr t d1 _ d2 _ (iblk m c 1 t) (iblk m c 2 t) (keptS m c))]
    iexact H5

/-- The library's body obligation, at every point. -/
theorem body_obligation (c : Dev nD) : BodyObligationLoose (dats m 0 c) (defs₀ (F := Ideal)) Variants.none () Set.univ := fun t => by
  rw [bigSep_W0, bigSep_W0]
  exact sound_point m c t

/-- What the launch hands the region is the invariant before the first point. -/
theorem hin (c : Dev nD) : Pipeline.ΦA spec0 c ⊢ (dats m 0 c).Φ 0 := Idealize.SL.BI.Entails.refl _

/-- After the last point the invariant gives it back: what the kept buffer holds is forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 45 from N_0]; decide), PhiA_eq]
  iintro ⟨HS, Hg⟩
  isplitl [HS]
  · iexists _; iexact HS
  iexact Hg

set_option backward.isDefEq.respectTransparency.types false in
/-- Every weakly fair execution terminates, every array of the region at what the library computes from the proof
    data, every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelIdeal.Run

end
-- ==== Proof.Layer.lean ====
/-
  The graph-convolution layer as ONE function of the five argument arrays, over the extended reals:
      S (k, f)   = Σ_j X (k, j) · W (j, f) + b (f)                      (the features, transformed and shifted)
      out (r, f) = max ( (Σ_k Adj (r, k) · S (k, f)) · Deg (r, 0), 0 )    (aggregated over the nodes, scaled by the row's degree factor, clamped below at 0)
  for r, k over the 10000 nodes, j over the 128 input features and f over the 128 output features.
-/
import Idealize.ShloMosaic.PureOps.Ideal
import Idealize.ShloMosaic.Lib.ValueIdx

noncomputable section

namespace Cert.Gcn

open Idealize.ShloMosaic Idealize.ShloMosaic.ValueIdx

/-- The transformed features `S = X·W + b` at node `k` and output feature `f`. -/
def support (X : (⟨2, ![10000, 128]⟩ : Shape).Idx → EReal) (W : (⟨2, ![128, 128]⟩ : Shape).Idx → EReal)
    (b : (⟨1, ![128]⟩ : Shape).Idx → EReal) (k : Fin 10000) (f : Fin 128) : EReal :=
  (∑ j : Fin 128, X (ix2 k j) * W (ix2 j f)) + b (ix1 f)

/-- The layer's output at node `r` and output feature `f`. -/
def layerAt (X : (⟨2, ![10000, 128]⟩ : Shape).Idx → EReal) (Adj : (⟨2, ![10000, 10000]⟩ : Shape).Idx → EReal)
    (Deg : (⟨2, ![10000, 1]⟩ : Shape).Idx → EReal) (W : (⟨2, ![128, 128]⟩ : Shape).Idx → EReal)
    (b : (⟨1, ![128]⟩ : Shape).Idx → EReal) (r : Fin 10000) (f : Fin 128) : EReal :=
  max ((∑ k : Fin 10000, Adj (ix2 r k) * support X W b k f) * Deg (ix2 r (0 : Fin 1))) 0

/-- The layer's output array. -/
def layer (X : (⟨2, ![10000, 128]⟩ : Shape).Idx → EReal) (Adj : (⟨2, ![10000, 10000]⟩ : Shape).Idx → EReal)
    (Deg : (⟨2, ![10000, 1]⟩ : Shape).Idx → EReal) (W : (⟨2, ![128, 128]⟩ : Shape).Idx → EReal)
    (b : (⟨1, ![128]⟩ : Shape).Idx → EReal) : (⟨2, ![10000, 128]⟩ : Shape).Idx → EReal :=
  fun i => layerAt X Adj Deg W b (i 0) (i 1)

theorem layer_apply (X : (⟨2, ![10000, 128]⟩ : Shape).Idx → EReal) (Adj : (⟨2, ![10000, 10000]⟩ : Shape).Idx → EReal)
    (Deg : (⟨2, ![10000, 1]⟩ : Shape).Idx → EReal) (W : (⟨2, ![128, 128]⟩ : Shape).Idx → EReal)
    (b : (⟨1, ![128]⟩ : Shape).Idx → EReal) (r : Fin 10000) (f : Fin 128) :
    layer X Adj Deg W b (ix2 r f) = layerAt X Adj Deg W b r f := rfl

end Cert.Gcn

end
-- ==== Proof.IdealArray.lean ====
/-
  From blocks to the array.  The output has 10000 rows in 45 blocks of 224: block t holds rows 224·t ‥ 224·t + 223,
  except the last, block 44, which starts at row 9856 and of which only the first 144 rows lie inside the array;
  those are the rows its write-back moves.  What point t writes back, at row r of the part moved and feature f, is
      max ( (Σ_k Adj (224·t + r, k) · S (k, f)) · Deg (224·t + r, 0), 0 ),     S (k, f) = Σ_j X (k, j) · W (j, f) + b (f),
  which is the layer's value at row 224·t + r: the adjacency and degree blocks are read where the output's rectangle
  says (same block index, same rows moved), X, W and b through their one whole-array block, b through the cast of
  the 128-vector to one row.  Every row R of the array lies in block R / 224, inside the part moved.  So the result
  array ends at the layer of the five argument arrays.
-/
import proofs.«105594_g66322884985284_cont_9to1c4b_680_18_alg».proof.Proof.IdealRun
import proofs.«105594_g66322884985284_cont_9to1c4b_680_18_alg».proof.Proof.Layer
import Idealize.ShloMosaic.Lib.StableHlo.Run

set_option maxRecDepth 16384

noncomputable section

namespace Cert.KernelIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open Cert.KernelIdeal Cert.KernelIdeal.Gen Cert.KernelIdeal.Point Cert.KernelIdeal.Layer Cert.KernelIdeal.Run

variable (m : (ℓ : Loc nD τ sig) → Buf (Elt Ideal) ℓ) (ρ : Dev nD → PrngReg)

/-- The printed index maps and cuts, decided over the 45 points: the three windows of 224 rows sit at block `t` of the
    rows and block 0 of the columns, and point `t` moves `min 224 (10000 - 224·t)` rows and all 128 columns of the output. -/
theorem idx_facts : ∀ t : Fin cfg0.N,
    win0_1.index t 0 = t.val ∧ win0_1.index t 1 = 0 ∧ win0_2.index t 0 = t.val ∧ win0_2.index t 1 = 0
      ∧ win0_5.index t 0 = t.val ∧ win0_5.index t 1 = 0
      ∧ win0_5.xsize (grid0.coords t) 0 = min 224 (10000 - 224 * t.val) ∧ win0_5.xsize (grid0.coords t) 1 = 128 :=
  (by decide +kernel : ∀ t : Fin grid0.N,
    win0_1.index t 0 = t.val ∧ win0_1.index t 1 = 0 ∧ win0_2.index t 0 = t.val ∧ win0_2.index t 1 = 0
      ∧ win0_5.index t 0 = t.val ∧ win0_5.index t 1 = 0
      ∧ win0_5.xsize (grid0.coords t) 0 = min 224 (10000 - 224 * t.val) ∧ win0_5.xsize (grid0.coords t) 1 = 128)

/-- The three windows of constant index sit at block 0 on both axes at the first point. -/
theorem idx_facts0 : win0_0.index t0 0 = 0 ∧ win0_0.index t0 1 = 0 ∧ win0_3.index t0 0 = 0 ∧ win0_3.index t0 1 = 0
    ∧ win0_4.index t0 0 = 0 ∧ win0_4.index t0 1 = 0 := by decide +kernel

/-! ## The blocks, read where the output's rectangle says -/

/-- The bias as the region finds it: the 128-vector cast to one row. -/
theorem V_bias (c : Dev nD) :
    (V m c main_call0_v0 : S1x128.Idx → EReal) = shapeCast S1x128 (m ((c : Thread nD τ).loc main_arg4)) shapeCasts_S128_S1x128 := by
  dsimp only [Gen.V, Gen.hostOps0]
  after_results
  rfl

theorem x_read (c : Dev nD) (k : Fin 10000) (j : Fin 128) : iblk m c 0 t0 (ix2 k j) = V m c main_arg0 (ix2 k j) := by
  obtain ⟨e0, e1, -, -, -, -⟩ := idx_facts0
  show V m c main_arg0 (((cfg0.win 0).blk t0).view.emb (ix2 k j)) = V m c main_arg0 (ix2 k j)
  refine congrArg (V m c main_arg0) (funext fun a => Fin.ext ?_)
  match a with
  | ⟨0, _⟩ => show win0_0.index t0 0 * 10000 + 1 * k.val = k.val; rw [e0]; omega
  | ⟨1, _⟩ => show win0_0.index t0 1 * 128 + 1 * j.val = j.val; rw [e1]; omega

theorem w_read (c : Dev nD) (j : Fin 128) (f : Fin 128) : iblk m c 3 t0 (ix2 j f) = V m c main_arg3 (ix2 j f) := by
  obtain ⟨-, -, e0, e1, -, -⟩ := idx_facts0
  show V m c main_arg3 (((cfg0.win 3).blk t0).view.emb (ix2 j f)) = V m c main_arg3 (ix2 j f)
  refine congrArg (V m c main_arg3) (funext fun a => Fin.ext ?_)
  match a with
  | ⟨0, _⟩ => show win0_3.index t0 0 * 128 + 1 * j.val = j.val; rw [e0]; omega
  | ⟨1, _⟩ => show win0_3.index t0 1 * 128 + 1 * f.val = f.val; rw [e1]; omega

theorem bias_read (c : Dev nD) (f : Fin 128) :
    iblk m c 4 t0 (ix2 (0 : Fin 1) f) = m ((c : Thread nD τ).loc main_arg4) (ix1 f) := by
  obtain ⟨-, -, -, -, e0, e1⟩ := idx_facts0
  have e : ((cfg0.win 4).blk t0).view.emb (ix2 (0 : Fin 1) f) = ix2 (0 : Fin 1) f := funext fun a => Fin.ext (by
    match a with
    | ⟨0, _⟩ => show win0_4.index t0 0 * 1 + 1 * 0 = 0; rw [e0]
    | ⟨1, _⟩ => show win0_4.index t0 1 * 128 + 1 * f.val = f.val; rw [e1]; omega)
  show (V m c main_call0_v0 : S1x128.Idx → EReal) (((cfg0.win 4).blk t0).view.emb (ix2 (0 : Fin 1) f)) = _
  rw [e, V_bias]
  exact shapeCast_a_1a_apply _ _ (0 : Fin 1) f

/-- The adjacency block filled out to 224 rows, at a row the transfer moves: the array's row `224·t + r`. -/
theorem adj_read (c : Dev nD) (t : Fin cfg0.N) (d : S224x10000.Idx → EReal) (r : Fin 224) (k : Fin 10000)
    (hr : r.val < win0_5.xsize (grid0.coords t) 0) (R : Fin 10000) (hR : R.val = 224 * t.val + r.val) :
    win0_1.fill (grid0.coords t) d (iblk m c 1 t) (ix2 r k) = V m c main_arg1 (ix2 R k) := by
  obtain ⟨h1, h2, h3, h4⟩ := xsize_facts t
  obtain ⟨i10, i11, -, -, -, -, -, -⟩ := idx_facts t
  have hm : win0_1.moved (grid0.coords t) (ix2 r k) = true := (win0_1.moved_iff _ _).mpr fun a => by
    match a with
    | ⟨0, _⟩ => show r.val < win0_1.xsize (grid0.coords t) 0; rw [h1]; exact hr
    | ⟨1, _⟩ => show k.val < win0_1.xsize (grid0.coords t) 1; rw [h3]; exact k.isLt
  unfold Pipeline.Window.fill
  rw [dif_pos hm]
  show V m c main_arg1 (((cfg0.win 1).blk t).view.emb _) = V m c main_arg1 (ix2 R k)
  refine congrArg (V m c main_arg1) (funext fun a => Fin.ext ?_)
  match a with
  | ⟨0, _⟩ => show win0_1.index t 0 * 224 + 1 * r.val = R.val; rw [i10, hR]; omega
  | ⟨1, _⟩ => show win0_1.index t 1 * 10000 + 1 * k.val = k.val; rw [i11]; omega

/-- The degree block likewise. -/
theorem deg_read (c : Dev nD) (t : Fin cfg0.N) (d : S224x1.Idx → EReal) (r : Fin 224)
    (hr : r.val < win0_5.xsize (grid0.coords t) 0) (R : Fin 10000) (hR : R.val = 224 * t.val + r.val) :
    win0_2.fill (grid0.coords t) d (iblk m c 2 t) (ix2 r (0 : Fin 1)) = V m c main_arg2 (ix2 R (0 : Fin 1)) := by
  obtain ⟨h1, h2, h3, h4⟩ := xsize_facts t
  obtain ⟨-, -, i20, i21, -, -, -, -⟩ := idx_facts t
  have hm : win0_2.moved (grid0.coords t) (ix2 r (0 : Fin 1)) = true := (win0_2.moved_iff _ _).mpr fun a => by
    match a with
    | ⟨0, _⟩ => show r.val < win0_2.xsize (grid0.coords t) 0; rw [h2]; exact hr
    | ⟨1, _⟩ => show (0 : ℕ) < win0_2.xsize (grid0.coords t) 1; rw [h4]; exact Nat.one_pos
  unfold Pipeline.Window.fill
  rw [dif_pos hm]
  show V m c main_arg2 (((cfg0.win 2).blk t).view.emb _) = V m c main_arg2 (ix2 R (0 : Fin 1))
  refine congrArg (V m c main_arg2) (funext fun a => Fin.ext ?_)
  match a with
  | ⟨0, _⟩ => show win0_2.index t 0 * 224 + 1 * r.val = R.val; rw [i20, hR]; omega
  | ⟨1, _⟩ => show win0_2.index t 1 * 1 + 1 * 0 = 0; rw [i21]

/-- What the kernel keeps is the layer's `S` of the argument arrays. -/
theorem keptS_apply (c : Dev nD) (k : Fin 10000) (f : Fin 128) :
    keptS m c (ix2 k f) = Cert.Gcn.support (V m c main_arg0) (V m c main_arg3) (m ((c : Thread nD τ).loc main_arg4)) k f := by
  unfold keptS Cert.Gcn.support
  rw [pay1_apply, bias_read]
  exact congrArg (· + m ((c : Thread nD τ).loc main_arg4) (ix1 f)) (Finset.sum_congr rfl fun j _ => by rw [x_read, w_read])

/-! ## What each point writes back, and the cover -/

/-- The layer of the arrays as the region finds them. -/
def G (c : Dev nD) : S10000x128.Idx → EReal :=
  Cert.Gcn.layer (V m c main_arg0) (V m c main_arg1) (V m c main_arg2) (V m c main_arg3) (m ((c : Thread nD τ).loc main_arg4))

/-- What point `t` writes back is block `t` of the layer, cut at the array's end. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]; unfold outBlock
  obtain ⟨-, -, -, -, i50, i51, x50, x51⟩ := idx_facts t
  funext j
  have hj0 : (j 0).val < win0_5.xsize (grid0.coords t) 0 := (j 0).isLt
  have hj1 : (j 1).val < win0_5.xsize (grid0.coords t) 1 := (j 1).isLt
  rw [x51] at hj1
  have hj0' : (j 0).val < 224 := by rw [x50] at hj0; omega
  have hR : 224 * t.val + (j 0).val < 10000 := by rw [x50] at hj0; omega
  have e1 : win0_5.xinj (grid0.coords t) j = ix2 (⟨(j 0).val, hj0'⟩ : Fin 224) (⟨(j 1).val, hj1⟩ : Fin 128) :=
    funext fun a => Fin.ext (by match a with | ⟨0, _⟩ => rfl | ⟨1, _⟩ => rfl)
  have e2 : ((cfg0.win 5).blk t).view.emb j = ix2 (⟨224 * t.val + (j 0).val, hR⟩ : Fin 10000) (⟨(j 1).val, hj1⟩ : Fin 128) :=
    funext fun a => Fin.ext (by
      match a with
      | ⟨0, _⟩ => show win0_5.index t 0 * 224 + 1 * (j 0).val = 224 * t.val + (j 0).val; rw [i50]; omega
      | ⟨1, _⟩ => show win0_5.index t 1 * 128 + 1 * (j 1).val = (j 1).val; rw [i51]; omega)
  show k0_pay2 (F := Ideal) _ _ _ (win0_5.xinj (grid0.coords t) j) = G m c (((cfg0.win 5).blk t).view.emb j)
  rw [e1, e2, pay2_apply]
  unfold G
  rw [Cert.Gcn.layer_apply]
  unfold Cert.Gcn.layerAt
  rw [deg_read m c t _ _ hj0 (⟨224 * t.val + (j 0).val, hR⟩ : Fin 10000) rfl]
  refine congrArg (fun s => max (s * V m c main_arg2 (ix2 (⟨224 * t.val + (j 0).val, hR⟩ : Fin 10000) (0 : Fin 1))) 0)
    (Finset.sum_congr rfl fun k _ => ?_)
  rw [adj_read m c t _ _ k hj0 (⟨224 * t.val + (j 0).val, hR⟩ : Fin 10000) rfl, keptS_apply]

/-- An index of the array is in point `t`'s block iff each coordinate is in the block's range, cut at the array's end. -/
theorem mem_blk (t : Fin cfg0.N) (i : S10000x128.Idx) :
    i ∈ ((cfg0.win 5).blk t).view.set ↔ ∀ a : Fin 2, win0_5.index t a * S224x128.size a ≤ (i a).val
      ∧ (i a).val < win0_5.index t a * S224x128.size a + win0_5.xsize (grid0.coords t) a := by
  show i ∈ ((View.whole main_v0).slice (win0_5.rect t)).set ↔ _
  rw [View.set_slice_whole, Rect.mem_set_unit]
  exact Iff.rfl

/-- Row `R` is in block `R / 224`, among the rows moved. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 45 := N_0
  obtain ⟨t, ht⟩ : ∃ t : Fin cfg0.N, t.val = (i 0).val / 224 := ⟨⟨(i 0).val / 224, by rw [hN]; omega⟩, rfl⟩
  refine ⟨t, flush0_5 t, ?_⟩
  rw [mem_blk]
  obtain ⟨-, -, -, -, i50, i51, x50, x51⟩ := idx_facts t
  intro a
  match a with
  | ⟨0, _⟩ =>
    show win0_5.index t 0 * 224 ≤ (i 0).val ∧ (i 0).val < win0_5.index t 0 * 224 + win0_5.xsize (grid0.coords t) 0
    rw [i50, x50, ht]; omega
  | ⟨1, _⟩ =>
    show win0_5.index t 1 * 128 ≤ (i 1).val ∧ (i 1).val < win0_5.index t 1 * 128 + win0_5.xsize (grid0.coords t) 1
    rw [i51, x51]; omega

/-- The result array after the run is the layer of the arrays as the region finds them, -/
theorem final (c : Dev nD) : (dats m 0 c).arrAt 5 cfg0.N = G m c :=
  (dats m 0 c).arrAt_eq_of_cover 5 (G m c) (fun t _ => flushed_eq m c t) (fun i => cover i)

/-- which are the argument arrays as launched. -/
theorem G_eq (c : Dev nD) : G m c = Cert.Gcn.layer (m ((c : Thread nD τ).loc main_arg0)) (m ((c : Thread nD τ).loc main_arg1))
    (m ((c : Thread nD τ).loc main_arg2)) (m ((c : Thread nD τ).loc main_arg3)) (m ((c : Thread nD τ).loc main_arg4)) := by
  unfold G; rw [V_main_arg0, V_main_arg1, V_main_arg2, V_main_arg3]

/-! ## The run, read -/

/-- Every weakly fair execution of the idealized kernel terminates with the result array at the layer of its
    arguments and the arguments unchanged. -/
theorem run : θ_run defs (onTc (τ := τ) (main (F := Ideal))) ⟨m, fun _ => 0, ρ⟩ fun r => ∀ c : Dev nD,
      r.2.mem ((c.tc : Thread nD τ).loc main_v0) = Cert.Gcn.layer (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans ((final m c).trans (G_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.KernelIdeal.Arr

end
-- ==== Proof.RefLayer.lean ====
/-
  The reference computes the layer.  Its ten host operations, read one at a time at an index: the two
  `dot_general`s are the two sums (over the 128 input features, over the 10000 nodes), the two broadcasts of the
  bias put b (f) at every node, the broadcast of the degree column puts Deg (r, 0) at every feature of row r, and
  the last operation is the maximum with the zero constant.  With the operands' indices written by coordinates
  this is `Cert.Gcn.layerAt` term by term.
-/
import proofs.«105594_g66322884985284_cont_9to1c4b_680_18_alg».proof.Proof.Gen.ReferenceIdeal.Read
import proofs.«105594_g66322884985284_cont_9to1c4b_680_18_alg».proof.Proof.Layer

noncomputable section

namespace Cert.ReferenceIdeal.RefLayer

open Cert.ReferenceIdeal Cert.ReferenceIdeal.Read Idealize.ShloMosaic Idealize.ShloMosaic.ValueIdx

/-! The operands' indices, by coordinates. -/

theorem lidx4 (r : Fin 10000) (f : Fin 128) (k : Fin 10000) : lidx_main_v4 (ix2 r f) k = ix2 r k :=
  funext fun a => Fin.ext (by match a with | ⟨0, _⟩ => rfl | ⟨1, _⟩ => rfl)
theorem ridx4 (r : Fin 10000) (f : Fin 128) (k : Fin 10000) : ridx_main_v4 (ix2 r f) k = ix2 k f :=
  funext fun a => Fin.ext (by match a with | ⟨0, _⟩ => rfl | ⟨1, _⟩ => rfl)
theorem lidx0 (k : Fin 10000) (f : Fin 128) (j : Fin 128) : lidx_main_v0 (ix2 k f) j = ix2 k j :=
  funext fun a => Fin.ext (by match a with | ⟨0, _⟩ => rfl | ⟨1, _⟩ => rfl)
theorem ridx0 (k : Fin 10000) (f : Fin 128) (j : Fin 128) : ridx_main_v0 (ix2 k f) j = ix2 j f :=
  funext fun a => Fin.ext (by match a with | ⟨0, _⟩ => rfl | ⟨1, _⟩ => rfl)
theorem idx2 (k : Fin 10000) (f : Fin 128) : idx_main_v2 (ix2 k f) = ix2 (0 : Fin 1) f :=
  funext fun a => Fin.ext (by match a with | ⟨0, _⟩ => rfl | ⟨1, _⟩ => rfl)
theorem idx1 (f : Fin 128) : idx_main_v1 (ix2 (0 : Fin 1) f) = ix1 f :=
  funext fun a => Fin.ext (by match a with | ⟨0, _⟩ => rfl)
theorem idx5 (r : Fin 10000) (f : Fin 128) : idx_main_v5 (ix2 r f) = ix2 r (0 : Fin 1) :=
  funext fun a => Fin.ext (by match a with | ⟨0, _⟩ => rfl | ⟨1, _⟩ => rfl)

/-- The transformed features as the reference computes them (its fourth operation) at `(k, f)`. -/
theorem support_eq (x0 : (⟨S10000x128, .f32⟩ : BufTy).Contents (Elt Ideal)) (x3 : (⟨S128x128, .f32⟩ : BufTy).Contents (Elt Ideal))
    (x4 : (⟨S128, .f32⟩ : BufTy).Contents (Elt Ideal)) (k : Fin 10000) (f : Fin 128) :
    val_main_v3 (F := Ideal) x0 x3 x4 (ix2 k f) = Cert.Gcn.support x0 x3 x4 k f := by
  rw [val_main_v3_apply, val_main_v0_apply, val_main_v2_apply, val_main_v1_apply, idx2, idx1]
  simp only [lidx0, ridx0, Ideal.addf_def]
  rfl

/-- The reference's result, as an array, is the layer. -/
theorem result_eq (x0 : (⟨S10000x128, .f32⟩ : BufTy).Contents (Elt Ideal)) (x1 : (⟨S10000x10000, .f32⟩ : BufTy).Contents (Elt Ideal))
    (x2 : (⟨S10000x1, .f32⟩ : BufTy).Contents (Elt Ideal)) (x3 : (⟨S128x128, .f32⟩ : BufTy).Contents (Elt Ideal))
    (x4 : (⟨S128, .f32⟩ : BufTy).Contents (Elt Ideal)) :
    val_main_v8 (F := Ideal) x0 x1 x2 x3 x4 = Cert.Gcn.layer x0 x1 x2 x3 x4 := by
  funext i
  obtain ⟨r, f, rfl⟩ : ∃ (r : Fin 10000) (f : Fin 128), i = ix2 r f := ⟨i 0, i 1, eq_ix2 i⟩
  rw [Cert.Gcn.layer_apply, val_main_v8_apply, val_main_v6_apply, val_main_v4_apply, val_main_v5_apply, val_main_v7_apply,
    val_main_cst_apply, idx5]
  simp only [lidx4, ridx4, support_eq, Ideal.maximumf_def, Ideal.mulf_def, Ideal.ofBits_def, Ideal.ofBits_zero_f32]
  rfl

end Cert.ReferenceIdeal.RefLayer

end
-- ==== Proof.lean ====
/-
  A graph-convolution layer, as a kernel and as a reference, compute one function.

  Both take features X (10000 × 128), a dense adjacency Adj (10000 × 10000), a degree column Deg (10000 × 1), weights
  W (128 × 128) and a bias b (128), and return
        out (r, f) = max ( (Σ_k Adj (r, k) · S (k, f)) · Deg (r, 0), 0 ),      S (k, f) = Σ_j X (k, j) · W (j, f) + b (f).
  The reference computes it with two matrix products on the host.  The kernel walks the 10000 rows of Adj in 45 blocks
  of 224 rows: at the first block it computes S once and keeps it; at every block it multiplies the block's rows of
  Adj into the kept S, scales each row by its entry of Deg, clamps at zero and writes the rows back.  The last block
  starts at row 9856 and overhangs the array by 80 rows: its transfers move only the 144 rows inside the array, and a
  row of the output depends on the same row of Adj and of Deg only, so what the buffers hold past row 10000 never
  reaches the array.  Over the extended reals both sides are the SAME sums, in the same grouping, of the same terms:
  the equality needs no law of arithmetic, and the inputs' finiteness is not used.

  The five claims:
    * the word-level kernel terminates, faults nowhere and leaves its arguments unchanged — from the body's run at a
      grid point on arbitrary buffer contents, nothing said of the result;
    * the same of the idealized kernel, and more: its result array ends at the layer of its arguments;
    * the same of the idealized reference: its ten host operations compose to the layer;
    * the idealization rewrote nothing;
    * so, from memories that agree on the arguments, the two idealized programs end with equal results.
-/
import proofs.«105594_g66322884985284_cont_9to1c4b_680_18_alg».proof.Defs
import proofs.«105594_g66322884985284_cont_9to1c4b_680_18_alg».proof.Proof.Gen.Kernel
import proofs.«105594_g66322884985284_cont_9to1c4b_680_18_alg».proof.Proof.Gen.KernelIdeal
import proofs.«105594_g66322884985284_cont_9to1c4b_680_18_alg».proof.Proof.Gen.ReferenceIdeal
import proofs.«105594_g66322884985284_cont_9to1c4b_680_18_alg».proof.Proof.Gen.ReferenceIdeal.Run
import proofs.«105594_g66322884985284_cont_9to1c4b_680_18_alg».proof.Proof.Gen.ReferenceIdeal.Read
import proofs.«105594_g66322884985284_cont_9to1c4b_680_18_alg».proof.Proof.Gen.Pre_finite_inputs
import proofs.«105594_g66322884985284_cont_9to1c4b_680_18_alg».proof.Proof.BitsFrame
import proofs.«105594_g66322884985284_cont_9to1c4b_680_18_alg».proof.Proof.IdealArray
import proofs.«105594_g66322884985284_cont_9to1c4b_680_18_alg».proof.Proof.RefLayer
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Run.frame (F := Bits) m ρ

/-- The idealized kernel runs and keeps its arguments: its value run with the result dropped. -/
theorem frame_kernelIdeal : Cert.frame_KernelIdeal := fun m ρ _ =>
  (θ_run Cert.KernelIdeal.defs _ _).mono (fun _ h c => (h c).2) (Cert.KernelIdeal.Arr.run m ρ)

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the layer of the arguments, which agree. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefLayer.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
